-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128 .f32) (main_arg6 : FVec F S128x2 .f32) (main_arg7 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x768 .f32) (main_arg1 : IVec S2x800000 32) (main_arg2 : FVec F S768x256 .f32) (main_arg3 : FVec F S256 .f32) (main_arg4 : FVec F S256x128 .f32) (main_arg5 : FVec F S128 .f32) (main_arg6 : FVec F S128x2 .f32) (main_arg7 : FVec F S2 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x256 .f32 := Host.absf main_arg2
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x768 : Shape := ⟨2, ![2000, 768]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩
abbrev S50000x2 : Shape := ⟨2, ![50000, 2]⟩
abbrev S2000x2 : Shape := ⟨2, ![2000, 2]⟩
abbrev S850000x2 : Shape := ⟨2, ![850000, 2]⟩
abbrev S1x2 : Shape := ⟨2, ![1, 2]⟩

abbrev nBuf : Space → Nat
  | .hbm => 125
  | .vmem => 15
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x2, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x2, .f32⟩
  | .hbm, ⟨107, _⟩ => ⟨S850000x1, .f32⟩
  | .hbm, ⟨108, _⟩ => ⟨S850000x2, .f32⟩
  | .hbm, ⟨109, _⟩ => ⟨S850000x2, .f32⟩
  | .hbm, ⟨110, _⟩ => ⟨S_, .f32⟩
  | .hbm, ⟨111, _⟩ => ⟨S50000x2, .f32⟩
  | .hbm, ⟨112, _⟩ => ⟨S850000x1, .i32⟩
  | .hbm, ⟨113, _⟩ => ⟨S50000x2, .f32⟩
  | .hbm, ⟨114, _⟩ => ⟨S1x2, .f32⟩
  | .hbm, ⟨115, _⟩ => ⟨S50000x2, .f32⟩
  | .hbm, ⟨116, _⟩ => ⟨S50000x2, .f32⟩
  | .hbm, ⟨117, _⟩ => ⟨S50000x2, .f32⟩
  | .hbm, ⟨118, _⟩ => ⟨S50000x2, .f32⟩
  | .hbm, ⟨119, _⟩ => ⟨S_, .f32⟩
  | .hbm, ⟨120, _⟩ => ⟨S50000x2, .f32⟩
  | .hbm, ⟨121, _⟩ => ⟨S50000x2, .f32⟩
  | .hbm, ⟨122, _⟩ => ⟨S_, .f32⟩
  | .hbm, ⟨123, _⟩ => ⟨S50000x2, .f32⟩
  | .hbm, ⟨124, _⟩ => ⟨S50000x2, .f32⟩
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x2, .f32⟩
  | .local _ .vmem, ⟨13, _⟩ => ⟨S2000x2, .f32⟩
  | .local _ .vmem, ⟨14, _⟩ => ⟨S2000x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x2_S128x2_0_0 : ∀ a, (![0, 0] : Fin 2 → Nat) a + S128x2.size a ≤ S128x2.size a
  h_S128x2 : 0 < S128x2.numel
  inb_S2000x2_S2000x2_0_0 : ∀ a, (![0, 0] : Fin 2 → Nat) a + S2000x2.size a ≤ S2000x2.size a
  h_S2000x2 : 0 < S2000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x768_S768x256_S2000x256_1_0_0_1_n_n_wf : DotDims.WF S2000x768 S768x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x2_S2000x2_1_0_0_1_n_n_wf : DotDims.WF S2000x128 S128x2 S2000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S50000x2.size a
  hwx2_2 : ∀ i : grid2.Coords, EltTy.bits .f32 = 32 ∨ (Rect.block (s := S50000x2) S2000x2.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S2000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩
abbrev S50000x2 : Shape := ⟨2, ![50000, 2]⟩
abbrev S850000x2 : Shape := ⟨2, ![850000, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x2, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x2, .f32⟩
  | .hbm, ⟨107, _⟩ => ⟨S850000x1, .f32⟩
  | .hbm, ⟨108, _⟩ => ⟨S850000x2, .f32⟩
  | .hbm, ⟨109, _⟩ => ⟨S850000x2, .f32⟩
  | .hbm, ⟨110, _⟩ => ⟨S_, .f32⟩
  | .hbm, ⟨111, _⟩ => ⟨S50000x2, .f32⟩
  | .hbm, ⟨112, _⟩ => ⟨S850000x1, .i32⟩
  | .hbm, ⟨113, _⟩ => ⟨S50000x2, .f32⟩
  | .hbm, ⟨114, _⟩ => ⟨S1x2, .f32⟩
  | .hbm, ⟨115, _⟩ => ⟨S50000x2, .f32⟩
  | .hbm, ⟨116, _⟩ => ⟨S50000x2, .f32⟩
  | .hbm, ⟨117, _⟩ => ⟨S50000x2, .f32⟩
  | .hbm, ⟨118, _⟩ => ⟨S50000x2, .f32⟩
  | .hbm, ⟨119, _⟩ => ⟨S_, .f32⟩
  | .hbm, ⟨120, _⟩ => ⟨S50000x2, .f32⟩
  | .hbm, ⟨121, _⟩ => ⟨S50000x2, .f32⟩
  | .hbm, ⟨122, _⟩ => ⟨S_, .f32⟩
  | .hbm, ⟨123, _⟩ => ⟨S50000x2, .f32⟩
  | .hbm, ⟨124, _⟩ => ⟨S50000x2, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x768_S768x256_S50000x256_1_0_0_1_n_n_wf : DotDims.WF S50000x768 S768x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x2_S50000x2_1_0_0_1_n_n_wf : DotDims.WF S50000x128 S128x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.KernelRun.lean ====
/-
  The idealized kernel program's run with its result named.  The program is eleven segments: stretches of host
  operations, and three launches of the row-tiled matrix product, one per layer of the network.  The contents of
  every buffer at each segment boundary are a fold from the launch memory: a host stretch applies its operations, a
  launch leaves its three arrays at what its write-backs leave and every other buffer as it found it.  Every weakly
  fair execution terminates, nothing faulting, with every unscoped buffer at the last boundary's contents; read there:
  the result buffer holds the fold's value at it, and each argument array is as launched.
-/
import proofs.«110147_j57415122813717_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the
    result buffer ends at the last boundary's contents `W11` read at it, and the argument arrays end as launched. -/
theorem run : θ_run defs (onTc (τ := τ) (main (F := F))) ⟨m, fun _ => 0, ρ⟩ (fun r => ∀ c : Dev nD,
      r.2.mem ((c.tc : Thread nD τ).loc main_v90) = W11 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v90 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.ResultRun

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibRowTileDot.lean ====
/-
  A row tile of a matrix product.  Cut the rows of an M × K array X into tiles of B rows; the tile that holds row r at its
  local row p is a B × K array T with T(p, k) = X(r, k).  Multiplying the tile by the whole K × N array W gives, at the
  entry (p, c), the sum over k < K of T(p, k) · W(k, c) = X(r, k) · W(k, c): the entry (r, c) of the whole product X · W.
  Nothing but the two sums being the same sum term by term is used, so the statement holds on the extended reals with
  no finiteness assumption.  The tile's product is the kernel's (into a zero accumulator); the whole product is the
  host's.  Each operand of the tile's product may be a copy of the whole array's rows or columns in any float format:
  only the values at the entries the sum visits are compared.
-/
import Idealize.ShloMosaic.PureOps.Ideal.Laws
import Idealize.ShloMosaic.Lib.ValueIdx
import proofs.«110147_j57415122813717_1_alg».proof.Proof.LibPlainDot

noncomputable section

namespace Cert.LibRowTileDot

open Idealize.ShloMosaic Idealize.ShloMosaic.ValueIdx

variable {M B K N : Nat} {φ₁ φ₂ ψ₁ ψ₂ : FTy}
  (Dt : DotDims (⟨2, ![B, K]⟩ : Shape) (⟨2, ![K, N]⟩ : Shape) (⟨2, ![B, N]⟩ : Shape))
  (htrank : Dt.contr.rank = 1) (htsize : Dt.contr.size ⟨0, by omega⟩ = K)
  (htlc : Dt.lhsContracting = [1]) (htrc : Dt.rhsContracting = [0])
  (htL0 : ∀ j k, (Dt.lhsIdx j k 0).val = (j 0).val) (htR1 : ∀ j k, (Dt.rhsIdx j k 1).val = (j 1).val)
  (Dh : DotDims (⟨2, ![M, K]⟩ : Shape) (⟨2, ![K, N]⟩ : Shape) (⟨2, ![M, N]⟩ : Shape))
  (hhrank : Dh.contr.rank = 1) (hhsize : Dh.contr.size ⟨0, by omega⟩ = K)
  (hhlc : Dh.lhsContracting = [1]) (hhrc : Dh.rhsContracting = [0])
  (hhL0 : ∀ j k, (Dh.lhsIdx j k 0).val = (j 0).val) (hhR1 : ∀ j k, (Dh.rhsIdx j k 1).val = (j 1).val)

include htrank htsize htlc htrc htL0 htR1 hhrank hhsize hhlc hhrc hhL0 hhR1 in
/-- Entry (p, c) of the tile's product into a zero accumulator is entry (r, c) of the whole host product, when the
    tile's row p is the whole array's row r and the tile's right operand has the whole right operand's column c. -/
theorem tile_entry (prec prec' : Option ContractPrecision) (sched : HostSchedule)
    (T : FVec Ideal (⟨2, ![B, K]⟩ : Shape) φ₁) (Wt : FVec Ideal (⟨2, ![K, N]⟩ : Shape) φ₂)
    (X : FVec Ideal (⟨2, ![M, K]⟩ : Shape) ψ₁) (W : FVec Ideal (⟨2, ![K, N]⟩ : Shape) ψ₂)
    (p : Fin B) (c : Fin N) (r : Fin M)
    (hT : ∀ k : Fin K, (T (ix2 p k) : EReal) = X (ix2 r k)) (hW : ∀ k : Fin K, (Wt (ix2 k c) : EReal) = W (ix2 k c)) :
    FloatOps.matmul Dt prec T Wt (constant (⟨2, ![B, N]⟩ : Shape) .f32 0x00000000#32) (ix2 p c)
      = FloatOps.dotGeneral Dh prec' sched X W (ix2 r c) := by
  rw [Cert.LibPlainDot.matmul_zero_apply Dt htrank htsize htlc htrc htL0 htR1 prec T Wt p c,
    Cert.LibPlainDot.dotGeneral_apply Dh hhrank hhsize hhlc hhrc hhL0 hhR1 prec' sched X W r c]
  exact Finset.sum_congr rfl fun k _ => by rw [hT k, hW k]

end Cert.LibRowTileDot

end
-- ==== Proof.Layer0.lean ====
/-
  The first layer's matrix product, launched on row tiles, is the host product of the node features by the first weight matrix.
  The launch cuts the 50000 rows of the left array into 25 tiles of 2000 rows, one per grid point; point t loads rows
  2000·t … 2000·t + 1999 (all 768 columns) and the whole 768 × 256 right array, narrows both to bf16 — the identity on extended
  reals — multiplies them into a zero accumulator and stores the 2000 × 256 result as block t of the output.
  Entry (p, c) of that block is the sum over k of left(2000·t + p, k) · right(k, c): entry (2000·t + p, c) of the host product of
  the two whole arrays.  The 25 blocks tile the output (row r lies in block r / 2000), so after the launch the output
  array IS the host product of the two arrays the launch found.  Only the term-by-term equality of two sums is used:
  no finiteness of the inputs is needed.
-/
import proofs.«110147_j57415122813717_1_alg».proof.Proof.Gen.KernelIdeal.Frame
import proofs.«110147_j57415122813717_1_alg».proof.Proof.Gen.ReferenceIdeal
import proofs.«110147_j57415122813717_1_alg».proof.Proof.LibRowTileDot
import Idealize.ShloMosaic.Lib.Pipeline.Value
import Idealize.ShloMosaic.Lib.ValueIdx
import Idealize.ShloMosaic.PureOps.Ideal.Laws

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem

/-! ## The two products' index maps -/

/-- The tile product reads its left operand in the output's row. -/
theorem tile_lhs_row (j : S2000x256.Idx) (q : dot_S2000x768_S768x256_S2000x256_1_0_0_1_n_n.contr.Idx) : (dot_S2000x768_S768x256_S2000x256_1_0_0_1_n_n.lhsIdx j q 0).val = (j 0).val := by
  unfold DotDims.lhsIdx
  rw [dif_neg (show ¬(0 : Fin S2000x768.rank) ∈ dot_S2000x768_S768x256_S2000x256_1_0_0_1_n_n.lhsBatch by decide), dif_pos (show (0 : Fin S2000x768.rank) ∈ dot_S2000x768_S768x256_S2000x256_1_0_0_1_n_n.lhsNonContracting by decide)]
  rfl

/-- The tile product reads its right operand in the output's column. -/
theorem tile_rhs_col (j : S2000x256.Idx) (q : dot_S2000x768_S768x256_S2000x256_1_0_0_1_n_n.contr.Idx) : (dot_S2000x768_S768x256_S2000x256_1_0_0_1_n_n.rhsIdx j q 1).val = (j 1).val := by
  unfold DotDims.rhsIdx
  rw [dif_neg (show ¬(1 : Fin S768x256.rank) ∈ dot_S2000x768_S768x256_S2000x256_1_0_0_1_n_n.rhsBatch by decide), dif_pos (show (1 : Fin S768x256.rank) ∈ dot_S2000x768_S768x256_S2000x256_1_0_0_1_n_n.rhsNonContracting by decide)]
  rfl

/-- The whole product reads its left operand in the output's row. -/
theorem whole_lhs_row (j : Cert.ReferenceIdeal.S50000x256.Idx) (q : Cert.ReferenceIdeal.dot_S50000x768_S768x256_S50000x256_1_0_0_1_n_n.contr.Idx) : (Cert.ReferenceIdeal.dot_S50000x768_S768x256_S50000x256_1_0_0_1_n_n.lhsIdx j q 0).val = (j 0).val := by
  unfold DotDims.lhsIdx
  rw [dif_neg (show ¬(0 : Fin Cert.ReferenceIdeal.S50000x768.rank) ∈ Cert.ReferenceIdeal.dot_S50000x768_S768x256_S50000x256_1_0_0_1_n_n.lhsBatch by decide), dif_pos (show (0 : Fin Cert.ReferenceIdeal.S50000x768.rank) ∈ Cert.ReferenceIdeal.dot_S50000x768_S768x256_S50000x256_1_0_0_1_n_n.lhsNonContracting by decide)]
  rfl

/-- The whole product reads its right operand in the output's column. -/
theorem whole_rhs_col (j : Cert.ReferenceIdeal.S50000x256.Idx) (q : Cert.ReferenceIdeal.dot_S50000x768_S768x256_S50000x256_1_0_0_1_n_n.contr.Idx) : (Cert.ReferenceIdeal.dot_S50000x768_S768x256_S50000x256_1_0_0_1_n_n.rhsIdx j q 1).val = (j 1).val := by
  unfold DotDims.rhsIdx
  rw [dif_neg (show ¬(1 : Fin Cert.ReferenceIdeal.S768x256.rank) ∈ Cert.ReferenceIdeal.dot_S50000x768_S768x256_S50000x256_1_0_0_1_n_n.rhsBatch by decide), dif_pos (show (1 : Fin Cert.ReferenceIdeal.S768x256.rank) ∈ Cert.ReferenceIdeal.dot_S50000x768_S768x256_S50000x256_1_0_0_1_n_n.rhsNonContracting by decide)]
  rfl

/-! ## One grid point's arithmetic -/

/-- What one grid point computes, at entry (p, c) of its block: the entry (r, c) of the whole product, when the point's
    left tile holds row r of the left array at its row p and its right operand is the right array. -/
theorem tile_product (x0 : Vec Ideal S2000x768 .f32) (x1 : Vec Ideal S768x256 .f32)
    (X : FVec Ideal Cert.ReferenceIdeal.S50000x768 .f32) (W : FVec Ideal Cert.ReferenceIdeal.S768x256 .f32)
    (p : Fin 2000) (c : Fin 256) (r : Fin 50000)
    (h0 : ∀ k : Fin 768, (x0 (ix2 p k) : EReal) = X (ix2 r k)) (h1 : ∀ k : Fin 768, (x1 (ix2 k c) : EReal) = W (ix2 k c)) :
    k0_pay1 (F := Ideal) x0 x1 (ix2 p c) = Host.dotGeneral Cert.ReferenceIdeal.dot_S50000x768_S768x256_S50000x256_1_0_0_1_n_n none X W (ix2 r c) := by
  unfold k0_pay1
  exact Cert.LibRowTileDot.tile_entry dot_S2000x768_S768x256_S2000x256_1_0_0_1_n_n rfl rfl rfl rfl tile_lhs_row tile_rhs_col
    Cert.ReferenceIdeal.dot_S50000x768_S768x256_S50000x256_1_0_0_1_n_n rfl rfl rfl rfl whole_lhs_row whole_rhs_col none none .single _ _ X W p c r h0 h1

/-! ## The launch: its blocks and what it leaves -/

variable (V : (c : Dev nD) → (b : Ref sig .tc) → Buf (Elt Ideal) ((c : Thread nD τ).loc b))

/-- The host product of the two arrays the launch finds. -/
def whole (c : Dev nD) : S50000x256.Idx → EReal :=
  Host.dotGeneral (F := Ideal) (φ₁ := .f32) (φ₂ := .f32) Cert.ReferenceIdeal.dot_S50000x768_S768x256_S50000x256_1_0_0_1_n_n none (V c main_arg0) (V c main_arg2)

theorem zero_offsets : (![0, 0] : Fin 2 → Nat) = fun _ => 0 := funext fun a => by fin_cases a <;> rfl

/-- The block indices over the grid: point t takes row block t of the left array and of the output, and the one block of
    the right array. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's left tile is row 2000·t + p of the left array. -/
theorem left_tile (c : Dev nD) (t : Fin cfg0.N) (p : Fin 2000) (k : Fin 768) (r : Fin 50000) (hr : r.val = t.val * 2000 + p.val) :
    iblk0 V c 0 t (ix2 p k) = V c main_arg0 (ix2 r k) := by
  show V c main_arg0 (((cfg0.win 0).blk t).view.emb (ix2 p k)) = V c main_arg0 (ix2 r k)
  refine congrArg (V c main_arg0) (funext fun a => Fin.ext ?_)
  obtain ⟨e0, e1, -, -, -, -⟩ := block_index t
  match a with
  | ⟨0, _⟩ => show win0_0.index t (0 : Fin 2) * 2000 + 1 * p.val = r.val; omega
  | ⟨1, _⟩ => show win0_0.index t (1 : Fin 2) * 768 + 1 * k.val = k.val; omega

/-- Point t's right operand is the whole right array. -/
theorem right_whole (c : Dev nD) (t : Fin cfg0.N) (k : Fin 768) (q : Fin 256) :
    iblk0 V c 1 t (ix2 k q) = V c main_arg2 (ix2 k q) := by
  show V c main_arg2 (((cfg0.win 1).blk t).view.emb (ix2 k q)) = V c main_arg2 (ix2 k q)
  refine congrArg (V c main_arg2) (funext fun a => Fin.ext ?_)
  obtain ⟨-, -, e2, e3, -, -⟩ := block_index t
  match a with
  | ⟨0, _⟩ => show win0_1.index t (0 : Fin 2) * 768 + 1 * k.val = k.val; omega
  | ⟨1, _⟩ => show win0_1.index t (1 : Fin 2) * 256 + 1 * q.val = q.val; omega

/-- What point t writes back is block t of the whole product. -/
theorem flushed (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero zero_offsets]
  simp only [View.ld_unit_zero (S := S2000x768) zero_offsets, View.ld_unit_zero (S := S768x256) zero_offsets]
  funext j
  obtain ⟨p, q, rfl⟩ : ∃ (p : Fin 2000) (q : Fin 256), j = ix2 p q := ⟨j 0, j 1, eq_ix2 j⟩
  have ht : t.val < 25 := lt_of_lt_of_eq t.isLt N_0
  have hp : p.val < 2000 := p.isLt
  obtain ⟨-, -, -, -, e4, e5⟩ := block_index t
  have he : ((cfg0.win 2).blk t).view.emb (ix2 p q) = ix2 (⟨t.val * 2000 + p.val, by omega⟩ : Fin 50000) q :=
    funext fun a => Fin.ext (by
      match a with
      | ⟨0, _⟩ => show win0_2.index t (0 : Fin 2) * 2000 + 1 * p.val = t.val * 2000 + p.val; omega
      | ⟨1, _⟩ => show win0_2.index t (1 : Fin 2) * 256 + 1 * q.val = q.val; omega)
  show k0_pay1 (F := Ideal) (iblk0 V c 0 t) (iblk0 V c 1 t) (ix2 p q) = whole V c (((cfg0.win 2).blk t).view.emb (ix2 p q))
  rw [he]
  exact tile_product (iblk0 V c 0 t) (iblk0 V c 1 t) (V c main_arg0) (V c main_arg2) p q ⟨t.val * 2000 + p.val, by omega⟩
    (fun k => left_tile V c t p k _ rfl) (fun k => right_whole V c t k q)

/-- An index of the output is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- The blocks tile the output: row r lies in the block of point r / 2000. -/
theorem covered (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : (i 0).val / 2000 < cfg0.N := lt_of_lt_of_eq (by omega : (i 0).val / 2000 < 25) N_0.symm
  obtain ⟨-, -, -, -, e4, e5⟩ := block_index ⟨(i 0).val / 2000, hN⟩
  refine ⟨⟨(i 0).val / 2000, hN⟩, flush0_2 _, ?_⟩
  rw [mem_block]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 256 ≤ (i 1).val ∧ (i 1).val < win0_2.index ⟨(i 0).val / 2000, hN⟩ (1 : Fin 2) * 256 + 256
    rw [e5]; omega

/-- After the launch the output array is the host product of the two arrays the launch found. -/
theorem written (c : Dev nD) : (dat0 V c).arrAt 2 cfg0.N = whole V c :=
  (dat0 V c).arrAt_eq_of_cover 2 (whole V c) (fun t _ => flushed V c t) covered

end Cert.KernelIdeal.Layer0

end
-- ==== Proof.Layer1.lean ====
/-
  The second layer's matrix product, launched on row tiles, is the host product of the first layer's activation by the second weight matrix.
  The launch cuts the 50000 rows of the left array into 25 tiles of 2000 rows, one per grid point; point t loads rows
  2000·t … 2000·t + 1999 (all 256 columns) and the whole 256 × 128 right array, narrows both to bf16 — the identity on extended
  reals — multiplies them into a zero accumulator and stores the 2000 × 128 result as block t of the output.
  The tile passes through a reshape to its own shape first, which changes nothing.
  Entry (p, c) of that block is the sum over k of left(2000·t + p, k) · right(k, c): entry (2000·t + p, c) of the host product of
  the two whole arrays.  The 25 blocks tile the output (row r lies in block r / 2000), so after the launch the output
  array IS the host product of the two arrays the launch found.  Only the term-by-term equality of two sums is used:
  no finiteness of the inputs is needed.
-/
import proofs.«110147_j57415122813717_1_alg».proof.Proof.Gen.KernelIdeal.Frame
import proofs.«110147_j57415122813717_1_alg».proof.Proof.Gen.ReferenceIdeal
import proofs.«110147_j57415122813717_1_alg».proof.Proof.LibRowTileDot
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem

/-! ## The two products' index maps -/

/-- The tile product reads its left operand in the output's row. -/
theorem tile_lhs_row (j : S2000x128.Idx) (q : dot_S2000x256_S256x128_S2000x128_1_0_0_1_n_n.contr.Idx) : (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl

/-- The tile product reads its right operand in the output's column. -/
theorem tile_rhs_col (j : S2000x128.Idx) (q : dot_S2000x256_S256x128_S2000x128_1_0_0_1_n_n.contr.Idx) : (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The whole product reads its left operand in the output's row. -/
theorem whole_lhs_row (j : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.lhsIdx j q 0).val = (j 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl

/-- The whole product reads its right operand in the output's column. -/
theorem whole_rhs_col (j : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.rhsIdx j q 1).val = (j 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-! ## One grid point's arithmetic -/

/-- What one grid point computes, at entry (p, c) of its block: the entry (r, c) of the whole product, when the point's
    left tile holds row r of the left array at its row p and its right operand is the right array. -/
theorem tile_product (x0 : Vec Ideal S2000x256 .f32) (x1 : Vec Ideal S256x128 .f32)
    (X : FVec Ideal Cert.ReferenceIdeal.S50000x256 .f32) (W : FVec Ideal Cert.ReferenceIdeal.S256x128 .f32)
    (p : Fin 2000) (c : Fin 128) (r : Fin 50000)
    (h0 : ∀ k : Fin 256, (x0 (ix2 p k) : EReal) = X (ix2 r k)) (h1 : ∀ k : Fin 256, (x1 (ix2 k c) : EReal) = W (ix2 k c)) :
    k1_pay1 (F := Ideal) x0 x1 (ix2 p c) = Host.dotGeneral Cert.ReferenceIdeal.dot_S50000x256_S256x128_S50000x128_1_0_0_1_n_n none X W (ix2 r c) := by
  unfold k1_pay1
  rw [shapeCast_self]
  exact Cert.LibRowTileDot.tile_entry dot_S2000x256_S256x128_S2000x128_1_0_0_1_n_n rfl rfl rfl rfl tile_lhs_row tile_rhs_col
    Cert.ReferenceIdeal.dot_S50000x256_S256x128_S50000x128_1_0_0_1_n_n rfl rfl rfl rfl whole_lhs_row whole_rhs_col none none .single _ _ X W p c r h0 h1

/-! ## The launch: its blocks and what it leaves -/

variable (V : (c : Dev nD) → (b : Ref sig .tc) → Buf (Elt Ideal) ((c : Thread nD τ).loc b))

/-- The host product of the two arrays the launch finds. -/
def whole (c : Dev nD) : S50000x128.Idx → EReal :=
  Host.dotGeneral (F := Ideal) (φ₁ := .f32) (φ₂ := .f32) Cert.ReferenceIdeal.dot_S50000x256_S256x128_S50000x128_1_0_0_1_n_n none (V c main_v49) (V c main_arg4)

theorem zero_offsets : (![0, 0] : Fin 2 → Nat) = fun _ => 0 := funext fun a => by fin_cases a <;> rfl

/-- The block indices over the grid: point t takes row block t of the left array and of the output, and the one block of
    the right array. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's left tile is row 2000·t + p of the left array. -/
theorem left_tile (c : Dev nD) (t : Fin cfg1.N) (p : Fin 2000) (k : Fin 256) (r : Fin 50000) (hr : r.val = t.val * 2000 + p.val) :
    iblk1 V c 0 t (ix2 p k) = V c main_v49 (ix2 r k) := by
  show V c main_v49 (((cfg1.win 0).blk t).view.emb (ix2 p k)) = V c main_v49 (ix2 r k)
  refine congrArg (V c main_v49) (funext fun a => Fin.ext ?_)
  obtain ⟨e0, e1, -, -, -, -⟩ := block_index t
  match a with
  | ⟨0, _⟩ => show win1_0.index t (0 : Fin 2) * 2000 + 1 * p.val = r.val; omega
  | ⟨1, _⟩ => show win1_0.index t (1 : Fin 2) * 256 + 1 * k.val = k.val; omega

/-- Point t's right operand is the whole right array. -/
theorem right_whole (c : Dev nD) (t : Fin cfg1.N) (k : Fin 256) (q : Fin 128) :
    iblk1 V c 1 t (ix2 k q) = V c main_arg4 (ix2 k q) := by
  show V c main_arg4 (((cfg1.win 1).blk t).view.emb (ix2 k q)) = V c main_arg4 (ix2 k q)
  refine congrArg (V c main_arg4) (funext fun a => Fin.ext ?_)
  obtain ⟨-, -, e2, e3, -, -⟩ := block_index t
  match a with
  | ⟨0, _⟩ => show win1_1.index t (0 : Fin 2) * 256 + 1 * k.val = k.val; omega
  | ⟨1, _⟩ => show win1_1.index t (1 : Fin 2) * 128 + 1 * q.val = q.val; omega

/-- What point t writes back is block t of the whole product. -/
theorem flushed (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero zero_offsets]
  simp only [View.ld_unit_zero (S := S2000x256) zero_offsets, View.ld_unit_zero (S := S256x128) zero_offsets]
  funext j
  obtain ⟨p, q, rfl⟩ : ∃ (p : Fin 2000) (q : Fin 128), j = ix2 p q := ⟨j 0, j 1, eq_ix2 j⟩
  have ht : t.val < 25 := lt_of_lt_of_eq t.isLt N_1
  have hp : p.val < 2000 := p.isLt
  obtain ⟨-, -, -, -, e4, e5⟩ := block_index t
  have he : ((cfg1.win 2).blk t).view.emb (ix2 p q) = ix2 (⟨t.val * 2000 + p.val, by omega⟩ : Fin 50000) q :=
    funext fun a => Fin.ext (by
      match a with
      | ⟨0, _⟩ => show win1_2.index t (0 : Fin 2) * 2000 + 1 * p.val = t.val * 2000 + p.val; omega
      | ⟨1, _⟩ => show win1_2.index t (1 : Fin 2) * 128 + 1 * q.val = q.val; omega)
  show k1_pay1 (F := Ideal) (iblk1 V c 0 t) (iblk1 V c 1 t) (ix2 p q) = whole V c (((cfg1.win 2).blk t).view.emb (ix2 p q))
  rw [he]
  exact tile_product (iblk1 V c 0 t) (iblk1 V c 1 t) (V c main_v49) (V c main_arg4) p q ⟨t.val * 2000 + p.val, by omega⟩
    (fun k => left_tile V c t p k _ rfl) (fun k => right_whole V c t k q)

/-- An index of the output is in point t's block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v50).slice (win1_2.rect t)).set ↔ _
  rw [View.set_slice_whole, Rect.mem_set_unit]
  exact Iff.rfl

/-- The blocks tile the output: row r lies in the block of point r / 2000. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 2000 < cfg1.N := lt_of_lt_of_eq (by omega : (i 0).val / 2000 < 25) N_1.symm
  obtain ⟨-, -, -, -, e4, e5⟩ := block_index ⟨(i 0).val / 2000, hN⟩
  refine ⟨⟨(i 0).val / 2000, hN⟩, flush1_2 _, ?_⟩
  rw [mem_block]
  intro a
  match a with
  | ⟨0, _⟩ =>
    show win1_2.index ⟨(i 0).val / 2000, hN⟩ (0 : Fin 2) * 2000 ≤ (i 0).val ∧ (i 0).val < win1_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hN⟩ (1 : Fin 2) * 128 ≤ (i 1).val ∧ (i 1).val < win1_2.index ⟨(i 0).val / 2000, hN⟩ (1 : Fin 2) * 128 + 128
    rw [e5]; omega

/-- After the launch the output array is the host product of the two arrays the launch found. -/
theorem written (c : Dev nD) : (dat1 V c).arrAt 2 cfg1.N = whole V c :=
  (dat1 V c).arrAt_eq_of_cover 2 (whole V c) (fun t _ => flushed V c t) covered

end Cert.KernelIdeal.Layer1

end
-- ==== Proof.Layer2.lean ====
/-
  The third layer's matrix product, launched on row tiles, is the host product of the second layer's activation by the third weight matrix.
  The launch cuts the 50000 rows of the left array into 25 tiles of 2000 rows, one per grid point; point t loads rows
  2000·t … 2000·t + 1999 (all 128 columns) and the whole 128 × 2 right array, narrows both to bf16 — the identity on extended
  reals — multiplies them into a zero accumulator and stores the 2000 × 2 result as block t of the output.
  The tile passes through a reshape to its own shape first, which changes nothing.
  Entry (p, c) of that block is the sum over k of left(2000·t + p, k) · right(k, c): entry (2000·t + p, c) of the host product of
  the two whole arrays.  The 25 blocks tile the output (row r lies in block r / 2000), so after the launch the output
  array IS the host product of the two arrays the launch found.  Only the term-by-term equality of two sums is used:
  no finiteness of the inputs is needed.
-/
import proofs.«110147_j57415122813717_1_alg».proof.Proof.Gen.KernelIdeal.Frame
import proofs.«110147_j57415122813717_1_alg».proof.Proof.Gen.ReferenceIdeal
import proofs.«110147_j57415122813717_1_alg».proof.Proof.LibRowTileDot
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem

/-! ## The two products' index maps -/

/-- The tile product reads its left operand in the output's row. -/
theorem tile_lhs_row (j : S2000x2.Idx) (q : dot_S2000x128_S128x2_S2000x2_1_0_0_1_n_n.contr.Idx) : (dot_S2000x128_S128x2_S2000x2_1_0_0_1_n_n.lhsIdx j q 0).val = (j 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl

/-- The tile product reads its right operand in the output's column. -/
theorem tile_rhs_col (j : S2000x2.Idx) (q : dot_S2000x128_S128x2_S2000x2_1_0_0_1_n_n.contr.Idx) : (dot_S2000x128_S128x2_S2000x2_1_0_0_1_n_n.rhsIdx j q 1).val = (j 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The whole product reads its left operand in the output's row. -/
theorem whole_lhs_row (j : Cert.ReferenceIdeal.S50000x2.Idx) (q : Cert.ReferenceIdeal.dot_S50000x128_S128x2_S50000x2_1_0_0_1_n_n.contr.Idx) : (Cert.ReferenceIdeal.dot_S50000x128_S128x2_S50000x2_1_0_0_1_n_n.lhsIdx j q 0).val = (j 0).val := by
  unfold DotDims.lhsIdx
  rw [dif_neg (show ¬(0 : Fin Cert.ReferenceIdeal.S50000x128.rank) ∈ Cert.ReferenceIdeal.dot_S50000x128_S128x2_S50000x2_1_0_0_1_n_n.lhsBatch by decide), dif_pos (show (0 : Fin Cert.ReferenceIdeal.S50000x128.rank) ∈ Cert.ReferenceIdeal.dot_S50000x128_S128x2_S50000x2_1_0_0_1_n_n.lhsNonContracting by decide)]
  rfl

/-- The whole product reads its right operand in the output's column. -/
theorem whole_rhs_col (j : Cert.ReferenceIdeal.S50000x2.Idx) (q : Cert.ReferenceIdeal.dot_S50000x128_S128x2_S50000x2_1_0_0_1_n_n.contr.Idx) : (Cert.ReferenceIdeal.dot_S50000x128_S128x2_S50000x2_1_0_0_1_n_n.rhsIdx j q 1).val = (j 1).val := by
  unfold DotDims.rhsIdx
  rw [dif_neg (show ¬(1 : Fin Cert.ReferenceIdeal.S128x2.rank) ∈ Cert.ReferenceIdeal.dot_S50000x128_S128x2_S50000x2_1_0_0_1_n_n.rhsBatch by decide), dif_pos (show (1 : Fin Cert.ReferenceIdeal.S128x2.rank) ∈ Cert.ReferenceIdeal.dot_S50000x128_S128x2_S50000x2_1_0_0_1_n_n.rhsNonContracting by decide)]
  rfl

/-! ## One grid point's arithmetic -/

/-- What one grid point computes, at entry (p, c) of its block: the entry (r, c) of the whole product, when the point's
    left tile holds row r of the left array at its row p and its right operand is the right array. -/
theorem tile_product (x0 : Vec Ideal S2000x128 .f32) (x1 : Vec Ideal S128x2 .f32)
    (X : FVec Ideal Cert.ReferenceIdeal.S50000x128 .f32) (W : FVec Ideal Cert.ReferenceIdeal.S128x2 .f32)
    (p : Fin 2000) (c : Fin 2) (r : Fin 50000)
    (h0 : ∀ k : Fin 128, (x0 (ix2 p k) : EReal) = X (ix2 r k)) (h1 : ∀ k : Fin 128, (x1 (ix2 k c) : EReal) = W (ix2 k c)) :
    k2_pay1 (F := Ideal) x0 x1 (ix2 p c) = Host.dotGeneral Cert.ReferenceIdeal.dot_S50000x128_S128x2_S50000x2_1_0_0_1_n_n none X W (ix2 r c) := by
  unfold k2_pay1
  rw [shapeCast_self]
  exact Cert.LibRowTileDot.tile_entry dot_S2000x128_S128x2_S2000x2_1_0_0_1_n_n rfl rfl rfl rfl tile_lhs_row tile_rhs_col
    Cert.ReferenceIdeal.dot_S50000x128_S128x2_S50000x2_1_0_0_1_n_n rfl rfl rfl rfl whole_lhs_row whole_rhs_col none none .single _ _ X W p c r h0 h1

/-! ## The launch: its blocks and what it leaves -/

variable (V : (c : Dev nD) → (b : Ref sig .tc) → Buf (Elt Ideal) ((c : Thread nD τ).loc b))

/-- The host product of the two arrays the launch finds. -/
def whole (c : Dev nD) : S50000x2.Idx → EReal :=
  Host.dotGeneral (F := Ideal) (φ₁ := .f32) (φ₂ := .f32) Cert.ReferenceIdeal.dot_S50000x128_S128x2_S50000x2_1_0_0_1_n_n none (V c main_v67) (V c main_arg6)

theorem zero_offsets : (![0, 0] : Fin 2 → Nat) = fun _ => 0 := funext fun a => by fin_cases a <;> rfl

/-- The block indices over the grid: point t takes row block t of the left array and of the output, and the one block of
    the right array. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of point t's left tile is row 2000·t + p of the left array. -/
theorem left_tile (c : Dev nD) (t : Fin cfg2.N) (p : Fin 2000) (k : Fin 128) (r : Fin 50000) (hr : r.val = t.val * 2000 + p.val) :
    iblk2 V c 0 t (ix2 p k) = V c main_v67 (ix2 r k) := by
  show V c main_v67 (((cfg2.win 0).blk t).view.emb (ix2 p k)) = V c main_v67 (ix2 r k)
  refine congrArg (V c main_v67) (funext fun a => Fin.ext ?_)
  obtain ⟨e0, e1, -, -, -, -⟩ := block_index t
  match a with
  | ⟨0, _⟩ => show win2_0.index t (0 : Fin 2) * 2000 + 1 * p.val = r.val; omega
  | ⟨1, _⟩ => show win2_0.index t (1 : Fin 2) * 128 + 1 * k.val = k.val; omega

/-- Point t's right operand is the whole right array. -/
theorem right_whole (c : Dev nD) (t : Fin cfg2.N) (k : Fin 128) (q : Fin 2) :
    iblk2 V c 1 t (ix2 k q) = V c main_arg6 (ix2 k q) := by
  show V c main_arg6 (((cfg2.win 1).blk t).view.emb (ix2 k q)) = V c main_arg6 (ix2 k q)
  refine congrArg (V c main_arg6) (funext fun a => Fin.ext ?_)
  obtain ⟨-, -, e2, e3, -, -⟩ := block_index t
  match a with
  | ⟨0, _⟩ => show win2_1.index t (0 : Fin 2) * 128 + 1 * k.val = k.val; omega
  | ⟨1, _⟩ => show win2_1.index t (1 : Fin 2) * 2 + 1 * q.val = q.val; omega

/-- What point t writes back is block t of the whole product. -/
theorem flushed (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x2) zero_offsets]
  funext j
  obtain ⟨p, q, rfl⟩ : ∃ (p : Fin 2000) (q : Fin 2), j = ix2 p q := ⟨j 0, j 1, eq_ix2 j⟩
  have ht : t.val < 25 := lt_of_lt_of_eq t.isLt N_2
  have hp : p.val < 2000 := p.isLt
  obtain ⟨-, -, -, -, e4, e5⟩ := block_index t
  have he : ((cfg2.win 2).blk t).view.emb (ix2 p q) = ix2 (⟨t.val * 2000 + p.val, by omega⟩ : Fin 50000) q :=
    funext fun a => Fin.ext (by
      match a with
      | ⟨0, _⟩ => show win2_2.index t (0 : Fin 2) * 2000 + 1 * p.val = t.val * 2000 + p.val; omega
      | ⟨1, _⟩ => show win2_2.index t (1 : Fin 2) * 2 + 1 * q.val = q.val; omega)
  show k2_pay1 (F := Ideal) (iblk2 V c 0 t) (iblk2 V c 1 t) (ix2 p q) = whole V c (((cfg2.win 2).blk t).view.emb (ix2 p q))
  rw [he]
  exact tile_product (iblk2 V c 0 t) (iblk2 V c 1 t) (V c main_v67) (V c main_arg6) p q ⟨t.val * 2000 + p.val, by omega⟩
    (fun k => left_tile V c t p k _ rfl) (fun k => right_whole V c t k q)

/-- An index of the output is in point t's block iff each coordinate is in the block's range on its axis. -/
theorem mem_block (t : Fin cfg2.N) (i : S50000x2.Idx) :
    i ∈ ((cfg2.win 2).blk t).view.set ↔ ∀ a : Fin 2, win2_2.index t a * S2000x2.size a ≤ (i a).val ∧ (i a).val < win2_2.index t a * S2000x2.size a + S2000x2.size a := by
  show i ∈ ((View.whole main_v68).slice (win2_2.rect t)).set ↔ _
  rw [View.set_slice_whole, Rect.mem_set_unit]
  exact Iff.rfl

/-- The blocks tile the output: row r lies in the block of point r / 2000. -/
theorem covered (i : S50000x2.Idx) : ∃ t : Fin cfg2.N, (cfg2.win 2).flush t = true ∧ i ∈ ((cfg2.win 2).blk t).view.set := by
  have hi0 : (i 0).val < 50000 := (i 0).isLt
  have hi1 : (i 1).val < 2 := (i 1).isLt
  have hN : (i 0).val / 2000 < cfg2.N := lt_of_lt_of_eq (by omega : (i 0).val / 2000 < 25) N_2.symm
  obtain ⟨-, -, -, -, e4, e5⟩ := block_index ⟨(i 0).val / 2000, hN⟩
  refine ⟨⟨(i 0).val / 2000, hN⟩, flush2_2 _, ?_⟩
  rw [mem_block]
  intro a
  match a with
  | ⟨0, _⟩ =>
    show win2_2.index ⟨(i 0).val / 2000, hN⟩ (0 : Fin 2) * 2000 ≤ (i 0).val ∧ (i 0).val < win2_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hN⟩ (1 : Fin 2) * 2 ≤ (i 1).val ∧ (i 1).val < win2_2.index ⟨(i 0).val / 2000, hN⟩ (1 : Fin 2) * 2 + 2
    rw [e5]; omega

/-- After the launch the output array is the host product of the two arrays the launch found. -/
theorem written (c : Dev nD) : (dat2 V c).arrAt 2 cfg2.N = whole V c :=
  (dat2 V c).arrAt_eq_of_cover 2 (whole V c) (fun t _ => flushed V c t) covered

end Cert.KernelIdeal.Layer2

end
-- ==== Proof.Stretches.lean ====
/-
  The host stretches of the idealized kernel program, one at a time.  A stretch is a straight line of host operations;
  what it leaves in a buffer is its operations' composed function of what the buffers it reads held before it.  Each
  statement below takes the contents before the stretch as an arbitrary valuation V and assumes only that the few
  buffers the stretch reads hold the reference's stage functions of the argument arrays; it concludes that the buffer
  the next part of the program reads holds the next stage.  The reference's stages are defined by the same operations in
  the same order, so after the reads are replaced the two sides are the same term up to the stages' definitions.
  The stretches: the edge list with self loops and the degree statistics (from the launch memory); the choice between
  the inverse square root and zero; the edge weights; and for each layer, gather – scale – scatter-add – bias, and then
  the activation (a rectifier twice, the logistic function at the end).
-/
import proofs.«110147_j57415122813717_1_alg».proof.Proof.Gen.KernelIdeal.Frame
import proofs.«110147_j57415122813717_1_alg».proof.Proof.ReferenceRead
import Idealize.ShloMosaic.Lib.StableHlo.Run

set_option maxRecDepth 16384
set_option maxHeartbeats 4000000

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.ReadP

/-! ## From the launch memory: the edge list with self loops, and the degree statistics -/

section First
variable (m : (ℓ : Loc nD τ sig) → Buf (Elt Ideal) ℓ) (ρ : Dev nD → PrngReg) (c : Dev nD)

/-- The edge sources with the self loops appended. -/
theorem first_src :
    StableHlo.after hostOps0 (W0 m ρ c) (Proc.devRef .tc main_v3) = val_main_v3 (F := Ideal) (m ((c : Thread nD τ).loc main_arg1)) := by
  after_results_simp <;> rfl

/-- The edge destinations with the self loops appended. -/
theorem first_dst :
    StableHlo.after hostOps0 (W0 m ρ c) (Proc.devRef .tc main_v6) = val_main_v6 (F := Ideal) (m ((c : Thread nD τ).loc main_arg1)) := by
  after_results_simp <;> rfl

/-- Where a node has an incoming edge (its degree is positive). -/
theorem first_pos :
    StableHlo.after hostOps0 (W0 m ρ c) (Proc.devRef .tc main_v12) = val_main_v12 (F := Ideal) (m ((c : Thread nD τ).loc main_arg1)) := by
  after_results_simp <;> rfl

/-- The inverse square root of each degree, the degree raised to at least one. -/
theorem first_rs :
    StableHlo.after hostOps0 (W0 m ρ c) (Proc.devRef .tc main_v15) = val_main_v15 (F := Ideal) (m ((c : Thread nD τ).loc main_arg1)) := by
  after_results_simp <;> rfl

/-- The zero that replaces the inverse square root at an isolated node. -/
theorem first_zero :
    StableHlo.after hostOps0 (W0 m ρ c) (Proc.devRef .tc main_cst_3) = val_main_cst_3 (F := Ideal) := by
  after_results_simp <;> rfl

end First

/-! ## A tensor value's buffer holds the value itself

An outlined function's operations move each operand from its buffer's type to the value's type and the result back;
the two types are the same type once the buffer's type is looked up, so each move is the identity. -/

/-- There and back is the identity, whatever the buffer. -/
theorem unwrap_wrap {T : BufTy} (x : TRef sig T) (v : T.Contents (Elt Ideal)) : x.ofBuf (x.toBuf v) = v := by
  obtain ⟨r, e, _, _⟩ := x; subst e; rfl

theorem unwrap_v12 (p q r) (v : (⟨S50000, .i1⟩ : BufTy).Contents (Elt Ideal)) :
    (TRef.of (sig := sig) (T := ⟨S50000, .i1⟩) main_v12 p q r).ofBuf v = v := rfl
theorem unwrap_v15 (p q r) (v : (⟨S50000, .f32⟩ : BufTy).Contents (Elt Ideal)) :
    (TRef.of (sig := sig) (T := ⟨S50000, .f32⟩) main_v15 p q r).ofBuf v = v := rfl
theorem unwrap_cst_3 (p q r) (v : (⟨S_, .f32⟩ : BufTy).Contents (Elt Ideal)) :
    (TRef.of (sig := sig) (T := ⟨S_, .f32⟩) main_cst_3 p q r).ofBuf v = v := rfl
theorem wrap_v16 (p q r) (v : (⟨S50000, .f32⟩ : BufTy).Contents (Elt Ideal)) :
    (TRef.of (sig := sig) (T := ⟨S50000, .f32⟩) main_v16 p q r).toBuf v = v := rfl
theorem unwrap_v48 (p q r) (v : (⟨S50000x256, .f32⟩ : BufTy).Contents (Elt Ideal)) :
    (TRef.of (sig := sig) (T := ⟨S50000x256, .f32⟩) main_v48 p q r).ofBuf v = v := rfl
theorem wrap_v49 (p q r) (v : (⟨S50000x256, .f32⟩ : BufTy).Contents (Elt Ideal)) :
    (TRef.of (sig := sig) (T := ⟨S50000x256, .f32⟩) main_v49 p q r).toBuf v = v := rfl
theorem unwrap_v66 (p q r) (v : (⟨S50000x128, .f32⟩ : BufTy).Contents (Elt Ideal)) :
    (TRef.of (sig := sig) (T := ⟨S50000x128, .f32⟩) main_v66 p q r).ofBuf v = v := rfl
theorem wrap_v67 (p q r) (v : (⟨S50000x128, .f32⟩ : BufTy).Contents (Elt Ideal)) :
    (TRef.of (sig := sig) (T := ⟨S50000x128, .f32⟩) main_v67 p q r).toBuf v = v := rfl

/-! ## Over an arbitrary valuation before the stretch -/

variable (V : Valuation τ sig (Elt Ideal))

/-- The normalizing factor per node: the inverse square root where the degree is positive, zero elsewhere. -/
theorem inv_sqrt_degree (x1 : (⟨Cert.ReferenceIdeal.S2x800000, .i32⟩ : BufTy).Contents (Elt Ideal))
    (h12 : V (Proc.devRef .tc main_v12) = val_main_v12 (F := Ideal) x1)
    (h15 : V (Proc.devRef .tc main_v15) = val_main_v15 (F := Ideal) x1)
    (hz : V (Proc.devRef .tc main_cst_3) = val_main_cst_3 (F := Ideal)) :
    StableHlo.after hostOps0_1 V (Proc.devRef .tc main_v16) = val_main_v16 (F := Ideal) x1 := by
  after_results_simp
  simp only [unwrap_wrap, unwrap_v12, unwrap_v15, unwrap_cst_3, wrap_v16]
  rw [h12, h15, hz]
  rfl

/-- The weight of each edge: the product of the factors at its two ends. -/
theorem edge_weight (x1 : (⟨Cert.ReferenceIdeal.S2x800000, .i32⟩ : BufTy).Contents (Elt Ideal))
    (h3 : V (Proc.devRef .tc main_v3) = val_main_v3 (F := Ideal) x1)
    (h6 : V (Proc.devRef .tc main_v6) = val_main_v6 (F := Ideal) x1)
    (h16 : V (Proc.devRef .tc main_v16) = val_main_v16 (F := Ideal) x1) :
    StableHlo.after hostOps0_2 V (Proc.devRef .tc main_v31) = val_main_v31 (F := Ideal) x1 := by
  after_results_simp
  rw [h3, h6, h16]
  rfl

/-- The first layer after the product: source rows gathered, scaled by the edge weights, scatter-added into destination rows, plus the bias. -/
theorem aggregate1 (x0 : (⟨Cert.ReferenceIdeal.S50000x768, .f32⟩ : BufTy).Contents (Elt Ideal)) (x1 : (⟨Cert.ReferenceIdeal.S2x800000, .i32⟩ : BufTy).Contents (Elt Ideal)) (x2 : (⟨Cert.ReferenceIdeal.S768x256, .f32⟩ : BufTy).Contents (Elt Ideal)) (x3 : (⟨Cert.ReferenceIdeal.S256, .f32⟩ : BufTy).Contents (Elt Ideal))
    (h3 : V (Proc.devRef .tc main_v3) = val_main_v3 (F := Ideal) x1)
    (h6 : V (Proc.devRef .tc main_v6) = val_main_v6 (F := Ideal) x1)
    (h31 : V (Proc.devRef .tc main_v31) = val_main_v31 (F := Ideal) x1)
    (hp : V (Proc.devRef .tc main_v32) = val_main_v32 (F := Ideal) x0 x2)
    (hb : V (Proc.devRef .tc main_arg3) = x3) :
    StableHlo.after hostOps1 V (Proc.devRef .tc main_v48) = val_main_v48 (F := Ideal) x0 x1 x2 x3 := by
  after_results_simp
  rw [h3, h6, h31, hp, hb]
  rfl

/-- The first layer's activation. -/
theorem rectify1 (x0 : (⟨Cert.ReferenceIdeal.S50000x768, .f32⟩ : BufTy).Contents (Elt Ideal)) (x1 : (⟨Cert.ReferenceIdeal.S2x800000, .i32⟩ : BufTy).Contents (Elt Ideal)) (x2 : (⟨Cert.ReferenceIdeal.S768x256, .f32⟩ : BufTy).Contents (Elt Ideal)) (x3 : (⟨Cert.ReferenceIdeal.S256, .f32⟩ : BufTy).Contents (Elt Ideal))
    (h48 : V (Proc.devRef .tc main_v48) = val_main_v48 (F := Ideal) x0 x1 x2 x3) :
    StableHlo.after hostOps1_1 V (Proc.devRef .tc main_v49) = val_main_v49 (F := Ideal) x0 x1 x2 x3 := by
  after_results_simp
  simp only [unwrap_wrap, unwrap_v48, wrap_v49]
  rw [h48]
  rfl

/-- The second layer after the product: gather, scale, scatter-add, bias. -/
theorem aggregate2 (x0 : (⟨Cert.ReferenceIdeal.S50000x768, .f32⟩ : BufTy).Contents (Elt Ideal)) (x1 : (⟨Cert.ReferenceIdeal.S2x800000, .i32⟩ : BufTy).Contents (Elt Ideal)) (x2 : (⟨Cert.ReferenceIdeal.S768x256, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S128, .f32⟩ : BufTy).Contents (Elt Ideal))
    (h3 : V (Proc.devRef .tc main_v3) = val_main_v3 (F := Ideal) x1)
    (h6 : V (Proc.devRef .tc main_v6) = val_main_v6 (F := Ideal) x1)
    (h31 : V (Proc.devRef .tc main_v31) = val_main_v31 (F := Ideal) x1)
    (hp : V (Proc.devRef .tc main_v50) = val_main_v50 (F := Ideal) x0 x1 x2 x3 x4)
    (hb : V (Proc.devRef .tc main_arg5) = x5) :
    StableHlo.after hostOps2 V (Proc.devRef .tc main_v66) = val_main_v66 (F := Ideal) x0 x1 x2 x3 x4 x5 := by
  after_results_simp
  rw [h3, h6, h31, hp, hb]
  rfl

/-- The second layer's activation. -/
theorem rectify2 (x0 : (⟨Cert.ReferenceIdeal.S50000x768, .f32⟩ : BufTy).Contents (Elt Ideal)) (x1 : (⟨Cert.ReferenceIdeal.S2x800000, .i32⟩ : BufTy).Contents (Elt Ideal)) (x2 : (⟨Cert.ReferenceIdeal.S768x256, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S128, .f32⟩ : BufTy).Contents (Elt Ideal))
    (h66 : V (Proc.devRef .tc main_v66) = val_main_v66 (F := Ideal) x0 x1 x2 x3 x4 x5) :
    StableHlo.after hostOps2_1 V (Proc.devRef .tc main_v67) = val_main_v67 (F := Ideal) x0 x1 x2 x3 x4 x5 := by
  after_results_simp
  simp only [unwrap_wrap, unwrap_v66, wrap_v67]
  rw [h66]
  rfl

/-- The third layer after the product — gather, scale, scatter-add, bias — and the logistic function: the result. -/
theorem aggregate3 (x0 : (⟨Cert.ReferenceIdeal.S50000x768, .f32⟩ : BufTy).Contents (Elt Ideal)) (x1 : (⟨Cert.ReferenceIdeal.S2x800000, .i32⟩ : BufTy).Contents (Elt Ideal)) (x2 : (⟨Cert.ReferenceIdeal.S768x256, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S128, .f32⟩ : BufTy).Contents (Elt Ideal)) (x6 : (⟨Cert.ReferenceIdeal.S128x2, .f32⟩ : BufTy).Contents (Elt Ideal)) (x7 : (⟨Cert.ReferenceIdeal.S2, .f32⟩ : BufTy).Contents (Elt Ideal))
    (h3 : V (Proc.devRef .tc main_v3) = val_main_v3 (F := Ideal) x1)
    (h6 : V (Proc.devRef .tc main_v6) = val_main_v6 (F := Ideal) x1)
    (h31 : V (Proc.devRef .tc main_v31) = val_main_v31 (F := Ideal) x1)
    (hp : V (Proc.devRef .tc main_v68) = val_main_v68 (F := Ideal) x0 x1 x2 x3 x4 x5 x6)
    (hb : V (Proc.devRef .tc main_arg7) = x7) :
    StableHlo.after hostOps3 V (Proc.devRef .tc main_v90) = val_main_v90 (F := Ideal) x0 x1 x2 x3 x4 x5 x6 x7 := by
  after_results_simp
  rw [h3, h6, h31, hp, hb]
  rfl

end Cert.KernelIdeal.Stretch

end
-- ==== Proof.Kept.lean ====
/-
  A host stretch leaves every buffer it does not write as it found it.  For each stretch of the idealized kernel program
  and each buffer that a later part of the program still reads — the edge sources, destinations and weights, and the
  argument arrays not yet consumed — none of the stretch's operations has that buffer as its result, so the contents
  after the stretch are the contents before it, whatever those were.
-/
import proofs.«110147_j57415122813717_1_alg».proof.Proof.Gen.KernelIdeal.Launch
import Idealize.ShloMosaic.Lib.StableHlo.Run

set_option maxRecDepth 16384
set_option maxHeartbeats 1000000

noncomputable section

namespace Cert.KernelIdeal.Kept

open Cert.KernelIdeal Cert.KernelIdeal.Gen
open Idealize.ShloMosaic Idealize.ShloMosaic.TcCoe Idealize.SL.Sem Idealize.ShloMosaic.StableHlo

variable {F : FTy → Type} [FloatOps F] (V : Valuation τ sig (Elt F))

/-! ### `hostOps0` -/

theorem s0_arg0 : StableHlo.after (hostOps0 (F := F)) V (Proc.devRef .tc main_arg0) = V (Proc.devRef .tc main_arg0) := by
  after_results_simp

theorem s0_arg2 : StableHlo.after (hostOps0 (F := F)) V (Proc.devRef .tc main_arg2) = V (Proc.devRef .tc main_arg2) := by
  after_results_simp

theorem s0_arg3 : StableHlo.after (hostOps0 (F := F)) V (Proc.devRef .tc main_arg3) = V (Proc.devRef .tc main_arg3) := by
  after_results_simp

theorem s0_arg4 : StableHlo.after (hostOps0 (F := F)) V (Proc.devRef .tc main_arg4) = V (Proc.devRef .tc main_arg4) := by
  after_results_simp

theorem s0_arg5 : StableHlo.after (hostOps0 (F := F)) V (Proc.devRef .tc main_arg5) = V (Proc.devRef .tc main_arg5) := by
  after_results_simp

theorem s0_arg6 : StableHlo.after (hostOps0 (F := F)) V (Proc.devRef .tc main_arg6) = V (Proc.devRef .tc main_arg6) := by
  after_results_simp

theorem s0_arg7 : StableHlo.after (hostOps0 (F := F)) V (Proc.devRef .tc main_arg7) = V (Proc.devRef .tc main_arg7) := by
  after_results_simp

/-! ### `hostOps0_1` -/

theorem s0_1_v3 : StableHlo.after (hostOps0_1 (F := F)) V (Proc.devRef .tc main_v3) = V (Proc.devRef .tc main_v3) := by
  after_results_simp

theorem s0_1_v6 : StableHlo.after (hostOps0_1 (F := F)) V (Proc.devRef .tc main_v6) = V (Proc.devRef .tc main_v6) := by
  after_results_simp

theorem s0_1_arg0 : StableHlo.after (hostOps0_1 (F := F)) V (Proc.devRef .tc main_arg0) = V (Proc.devRef .tc main_arg0) := by
  after_results_simp

theorem s0_1_arg2 : StableHlo.after (hostOps0_1 (F := F)) V (Proc.devRef .tc main_arg2) = V (Proc.devRef .tc main_arg2) := by
  after_results_simp

theorem s0_1_arg3 : StableHlo.after (hostOps0_1 (F := F)) V (Proc.devRef .tc main_arg3) = V (Proc.devRef .tc main_arg3) := by
  after_results_simp

theorem s0_1_arg4 : StableHlo.after (hostOps0_1 (F := F)) V (Proc.devRef .tc main_arg4) = V (Proc.devRef .tc main_arg4) := by
  after_results_simp

theorem s0_1_arg5 : StableHlo.after (hostOps0_1 (F := F)) V (Proc.devRef .tc main_arg5) = V (Proc.devRef .tc main_arg5) := by
  after_results_simp

theorem s0_1_arg6 : StableHlo.after (hostOps0_1 (F := F)) V (Proc.devRef .tc main_arg6) = V (Proc.devRef .tc main_arg6) := by
  after_results_simp

theorem s0_1_arg7 : StableHlo.after (hostOps0_1 (F := F)) V (Proc.devRef .tc main_arg7) = V (Proc.devRef .tc main_arg7) := by
  after_results_simp

/-! ### `hostOps0_2` -/

theorem s0_2_v3 : StableHlo.after (hostOps0_2 (F := F)) V (Proc.devRef .tc main_v3) = V (Proc.devRef .tc main_v3) := by
  after_results_simp

theorem s0_2_v6 : StableHlo.after (hostOps0_2 (F := F)) V (Proc.devRef .tc main_v6) = V (Proc.devRef .tc main_v6) := by
  after_results_simp

theorem s0_2_arg0 : StableHlo.after (hostOps0_2 (F := F)) V (Proc.devRef .tc main_arg0) = V (Proc.devRef .tc main_arg0) := by
  after_results_simp

theorem s0_2_arg2 : StableHlo.after (hostOps0_2 (F := F)) V (Proc.devRef .tc main_arg2) = V (Proc.devRef .tc main_arg2) := by
  after_results_simp

theorem s0_2_arg3 : StableHlo.after (hostOps0_2 (F := F)) V (Proc.devRef .tc main_arg3) = V (Proc.devRef .tc main_arg3) := by
  after_results_simp

theorem s0_2_arg4 : StableHlo.after (hostOps0_2 (F := F)) V (Proc.devRef .tc main_arg4) = V (Proc.devRef .tc main_arg4) := by
  after_results_simp

theorem s0_2_arg5 : StableHlo.after (hostOps0_2 (F := F)) V (Proc.devRef .tc main_arg5) = V (Proc.devRef .tc main_arg5) := by
  after_results_simp

theorem s0_2_arg6 : StableHlo.after (hostOps0_2 (F := F)) V (Proc.devRef .tc main_arg6) = V (Proc.devRef .tc main_arg6) := by
  after_results_simp

theorem s0_2_arg7 : StableHlo.after (hostOps0_2 (F := F)) V (Proc.devRef .tc main_arg7) = V (Proc.devRef .tc main_arg7) := by
  after_results_simp

/-! ### `hostOps1` -/

theorem s1_v3 : StableHlo.after (hostOps1 (F := F)) V (Proc.devRef .tc main_v3) = V (Proc.devRef .tc main_v3) := by
  after_results_simp

theorem s1_v6 : StableHlo.after (hostOps1 (F := F)) V (Proc.devRef .tc main_v6) = V (Proc.devRef .tc main_v6) := by
  after_results_simp

theorem s1_v31 : StableHlo.after (hostOps1 (F := F)) V (Proc.devRef .tc main_v31) = V (Proc.devRef .tc main_v31) := by
  after_results_simp

theorem s1_arg4 : StableHlo.after (hostOps1 (F := F)) V (Proc.devRef .tc main_arg4) = V (Proc.devRef .tc main_arg4) := by
  after_results_simp

theorem s1_arg5 : StableHlo.after (hostOps1 (F := F)) V (Proc.devRef .tc main_arg5) = V (Proc.devRef .tc main_arg5) := by
  after_results_simp

theorem s1_arg6 : StableHlo.after (hostOps1 (F := F)) V (Proc.devRef .tc main_arg6) = V (Proc.devRef .tc main_arg6) := by
  after_results_simp

theorem s1_arg7 : StableHlo.after (hostOps1 (F := F)) V (Proc.devRef .tc main_arg7) = V (Proc.devRef .tc main_arg7) := by
  after_results_simp

/-! ### `hostOps1_1` -/

theorem s1_1_v3 : StableHlo.after (hostOps1_1 (F := F)) V (Proc.devRef .tc main_v3) = V (Proc.devRef .tc main_v3) := by
  after_results_simp

theorem s1_1_v6 : StableHlo.after (hostOps1_1 (F := F)) V (Proc.devRef .tc main_v6) = V (Proc.devRef .tc main_v6) := by
  after_results_simp

theorem s1_1_v31 : StableHlo.after (hostOps1_1 (F := F)) V (Proc.devRef .tc main_v31) = V (Proc.devRef .tc main_v31) := by
  after_results_simp

theorem s1_1_arg4 : StableHlo.after (hostOps1_1 (F := F)) V (Proc.devRef .tc main_arg4) = V (Proc.devRef .tc main_arg4) := by
  after_results_simp

theorem s1_1_arg5 : StableHlo.after (hostOps1_1 (F := F)) V (Proc.devRef .tc main_arg5) = V (Proc.devRef .tc main_arg5) := by
  after_results_simp

theorem s1_1_arg6 : StableHlo.after (hostOps1_1 (F := F)) V (Proc.devRef .tc main_arg6) = V (Proc.devRef .tc main_arg6) := by
  after_results_simp

theorem s1_1_arg7 : StableHlo.after (hostOps1_1 (F := F)) V (Proc.devRef .tc main_arg7) = V (Proc.devRef .tc main_arg7) := by
  after_results_simp

/-! ### `hostOps2` -/

theorem s2_v3 : StableHlo.after (hostOps2 (F := F)) V (Proc.devRef .tc main_v3) = V (Proc.devRef .tc main_v3) := by
  after_results_simp

theorem s2_v6 : StableHlo.after (hostOps2 (F := F)) V (Proc.devRef .tc main_v6) = V (Proc.devRef .tc main_v6) := by
  after_results_simp

theorem s2_v31 : StableHlo.after (hostOps2 (F := F)) V (Proc.devRef .tc main_v31) = V (Proc.devRef .tc main_v31) := by
  after_results_simp

theorem s2_arg6 : StableHlo.after (hostOps2 (F := F)) V (Proc.devRef .tc main_arg6) = V (Proc.devRef .tc main_arg6) := by
  after_results_simp

theorem s2_arg7 : StableHlo.after (hostOps2 (F := F)) V (Proc.devRef .tc main_arg7) = V (Proc.devRef .tc main_arg7) := by
  after_results_simp

/-! ### `hostOps2_1` -/

theorem s2_1_v3 : StableHlo.after (hostOps2_1 (F := F)) V (Proc.devRef .tc main_v3) = V (Proc.devRef .tc main_v3) := by
  after_results_simp

theorem s2_1_v6 : StableHlo.after (hostOps2_1 (F := F)) V (Proc.devRef .tc main_v6) = V (Proc.devRef .tc main_v6) := by
  after_results_simp

theorem s2_1_v31 : StableHlo.after (hostOps2_1 (F := F)) V (Proc.devRef .tc main_v31) = V (Proc.devRef .tc main_v31) := by
  after_results_simp

theorem s2_1_arg6 : StableHlo.after (hostOps2_1 (F := F)) V (Proc.devRef .tc main_arg6) = V (Proc.devRef .tc main_arg6) := by
  after_results_simp

theorem s2_1_arg7 : StableHlo.after (hostOps2_1 (F := F)) V (Proc.devRef .tc main_arg7) = V (Proc.devRef .tc main_arg7) := by
  after_results_simp

end Cert.KernelIdeal.Kept

end
-- ==== Proof.Fold.lean ====
/-
  The idealized kernel program's result as a function of its eight argument arrays.
  The program and the reference are the same graph network, line for line — self loops appended to the edge list, the
  symmetric degree normalization as edge weights, and per layer a matrix product, a gather of source rows, a scaling by
  the edge weight, a scatter-add into destination rows, a bias and the activation — except that the kernel's three
  matrix products are launches on row tiles where the reference has host products.
  The contents of the buffers at the twelve boundaries between the program's parts are followed from the launch memory
  to the return.  At each boundary the buffers that are still read later hold the reference's own stage functions of the
  argument arrays: a host stretch takes stages to the next stage (the stretch lemmas) and leaves the other buffers
  alone; a launch leaves the host product of the two arrays it found (the layer lemmas), which is the reference's
  product stage, and touches nothing else.  At the last boundary the result buffer holds the reference's last stage.
-/
import proofs.«110147_j57415122813717_1_alg».proof.Proof.Gen.KernelIdeal.Frame
import proofs.«110147_j57415122813717_1_alg».proof.Proof.ReferenceRead
import proofs.«110147_j57415122813717_1_alg».proof.Proof.Layer0
import proofs.«110147_j57415122813717_1_alg».proof.Proof.Layer1
import proofs.«110147_j57415122813717_1_alg».proof.Proof.Layer2
import proofs.«110147_j57415122813717_1_alg».proof.Proof.Stretches
import proofs.«110147_j57415122813717_1_alg».proof.Proof.Kept

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v12 val_main_v15 val_main_cst_3 val_main_v16 val_main_v31 val_main_v32
  val_main_v48 val_main_v49 val_main_v50 val_main_v66 val_main_v67 val_main_v68 val_main_v90)

variable (m : (ℓ : Loc nD τ sig) → Buf (Elt Ideal) ℓ) (ρ : Dev nD → PrngReg) (c : Dev nD)

/-! ## The argument arrays as launched -/

abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)
abbrev arg5 := m ((c : Thread nD τ).loc main_arg5)
abbrev arg6 := m ((c : Thread nD τ).loc main_arg6)
abbrev arg7 := m ((c : Thread nD τ).loc main_arg7)

/-! ## After the first stretch: the edge list with self loops and the degree statistics -/

theorem w1_src : W1 m ρ c (Proc.devRef .tc main_v3) = val_main_v3 (F := Ideal) (arg1 m c) :=
  Stretch.first_src m ρ c
theorem w1_dst : W1 m ρ c (Proc.devRef .tc main_v6) = val_main_v6 (F := Ideal) (arg1 m c) :=
  Stretch.first_dst m ρ c
theorem w1_pos : W1 m ρ c (Proc.devRef .tc main_v12) = val_main_v12 (F := Ideal) (arg1 m c) :=
  Stretch.first_pos m ρ c
theorem w1_rs : W1 m ρ c (Proc.devRef .tc main_v15) = val_main_v15 (F := Ideal) (arg1 m c) :=
  Stretch.first_rs m ρ c
theorem w1_zero : W1 m ρ c (Proc.devRef .tc main_cst_3) = val_main_cst_3 (F := Ideal) :=
  Stretch.first_zero m ρ c
theorem w1_arg0 : W1 m ρ c (Proc.devRef .tc main_arg0) = arg0 m c :=
  (Kept.s0_arg0 (W0 m ρ c)).trans rfl
theorem w1_arg2 : W1 m ρ c (Proc.devRef .tc main_arg2) = arg2 m c :=
  (Kept.s0_arg2 (W0 m ρ c)).trans rfl
theorem w1_arg3 : W1 m ρ c (Proc.devRef .tc main_arg3) = arg3 m c :=
  (Kept.s0_arg3 (W0 m ρ c)).trans rfl
theorem w1_arg4 : W1 m ρ c (Proc.devRef .tc main_arg4) = arg4 m c :=
  (Kept.s0_arg4 (W0 m ρ c)).trans rfl
theorem w1_arg5 : W1 m ρ c (Proc.devRef .tc main_arg5) = arg5 m c :=
  (Kept.s0_arg5 (W0 m ρ c)).trans rfl
theorem w1_arg6 : W1 m ρ c (Proc.devRef .tc main_arg6) = arg6 m c :=
  (Kept.s0_arg6 (W0 m ρ c)).trans rfl
theorem w1_arg7 : W1 m ρ c (Proc.devRef .tc main_arg7) = arg7 m c :=
  (Kept.s0_arg7 (W0 m ρ c)).trans rfl

/-! ## After the choice between the inverse square root and zero -/

theorem w2_inv : W2 m ρ c (Proc.devRef .tc main_v16) = val_main_v16 (F := Ideal) (arg1 m c) :=
  Stretch.inv_sqrt_degree (W1 m ρ c) (arg1 m c) (w1_pos m ρ c) (w1_rs m ρ c) (w1_zero m ρ c)
theorem w2_src : W2 m ρ c (Proc.devRef .tc main_v3) = val_main_v3 (F := Ideal) (arg1 m c) :=
  (Kept.s0_1_v3 (W1 m ρ c)).trans (w1_src m ρ c)
theorem w2_dst : W2 m ρ c (Proc.devRef .tc main_v6) = val_main_v6 (F := Ideal) (arg1 m c) :=
  (Kept.s0_1_v6 (W1 m ρ c)).trans (w1_dst m ρ c)
theorem w2_arg0 : W2 m ρ c (Proc.devRef .tc main_arg0) = arg0 m c :=
  (Kept.s0_1_arg0 (W1 m ρ c)).trans (w1_arg0 m ρ c)
theorem w2_arg2 : W2 m ρ c (Proc.devRef .tc main_arg2) = arg2 m c :=
  (Kept.s0_1_arg2 (W1 m ρ c)).trans (w1_arg2 m ρ c)
theorem w2_arg3 : W2 m ρ c (Proc.devRef .tc main_arg3) = arg3 m c :=
  (Kept.s0_1_arg3 (W1 m ρ c)).trans (w1_arg3 m ρ c)
theorem w2_arg4 : W2 m ρ c (Proc.devRef .tc main_arg4) = arg4 m c :=
  (Kept.s0_1_arg4 (W1 m ρ c)).trans (w1_arg4 m ρ c)
theorem w2_arg5 : W2 m ρ c (Proc.devRef .tc main_arg5) = arg5 m c :=
  (Kept.s0_1_arg5 (W1 m ρ c)).trans (w1_arg5 m ρ c)
theorem w2_arg6 : W2 m ρ c (Proc.devRef .tc main_arg6) = arg6 m c :=
  (Kept.s0_1_arg6 (W1 m ρ c)).trans (w1_arg6 m ρ c)
theorem w2_arg7 : W2 m ρ c (Proc.devRef .tc main_arg7) = arg7 m c :=
  (Kept.s0_1_arg7 (W1 m ρ c)).trans (w1_arg7 m ρ c)

/-! ## Before the first launch: the edge weights -/

theorem w3_wt : W3 m ρ c (Proc.devRef .tc main_v31) = val_main_v31 (F := Ideal) (arg1 m c) :=
  Stretch.edge_weight (W2 m ρ c) (arg1 m c) (w2_src m ρ c) (w2_dst m ρ c) (w2_inv m ρ c)
theorem w3_src : W3 m ρ c (Proc.devRef .tc main_v3) = val_main_v3 (F := Ideal) (arg1 m c) :=
  (Kept.s0_2_v3 (W2 m ρ c)).trans (w2_src m ρ c)
theorem w3_dst : W3 m ρ c (Proc.devRef .tc main_v6) = val_main_v6 (F := Ideal) (arg1 m c) :=
  (Kept.s0_2_v6 (W2 m ρ c)).trans (w2_dst m ρ c)
theorem w3_arg0 : W3 m ρ c (Proc.devRef .tc main_arg0) = arg0 m c :=
  (Kept.s0_2_arg0 (W2 m ρ c)).trans (w2_arg0 m ρ c)
theorem w3_arg2 : W3 m ρ c (Proc.devRef .tc main_arg2) = arg2 m c :=
  (Kept.s0_2_arg2 (W2 m ρ c)).trans (w2_arg2 m ρ c)
theorem w3_arg3 : W3 m ρ c (Proc.devRef .tc main_arg3) = arg3 m c :=
  (Kept.s0_2_arg3 (W2 m ρ c)).trans (w2_arg3 m ρ c)
theorem w3_arg4 : W3 m ρ c (Proc.devRef .tc main_arg4) = arg4 m c :=
  (Kept.s0_2_arg4 (W2 m ρ c)).trans (w2_arg4 m ρ c)
theorem w3_arg5 : W3 m ρ c (Proc.devRef .tc main_arg5) = arg5 m c :=
  (Kept.s0_2_arg5 (W2 m ρ c)).trans (w2_arg5 m ρ c)
theorem w3_arg6 : W3 m ρ c (Proc.devRef .tc main_arg6) = arg6 m c :=
  (Kept.s0_2_arg6 (W2 m ρ c)).trans (w2_arg6 m ρ c)
theorem w3_arg7 : W3 m ρ c (Proc.devRef .tc main_arg7) = arg7 m c :=
  (Kept.s0_2_arg7 (W2 m ρ c)).trans (w2_arg7 m ρ c)

/-! ## After the first launch -/

/-- The first launch leaves the host product of the node features by the first weight matrix. -/
theorem w4_prod : W4 m ρ c (Proc.devRef .tc main_v32) = val_main_v32 (F := Ideal) (arg0 m c) (arg2 m c) := by
  refine (W4_arr m ρ c 2).trans ((Cert.KernelIdeal.Layer0.written (V3 m ρ) c).trans ?_)
  unfold Cert.KernelIdeal.Layer0.whole
  rw [show V3 m ρ c main_arg0 = arg0 m c from w3_arg0 m ρ c, show V3 m ρ c main_arg2 = arg2 m c from w3_arg2 m ρ c]
  rfl
theorem w4_src : W4 m ρ c (Proc.devRef .tc main_v3) = val_main_v3 (F := Ideal) (arg1 m c) :=
  (W4_of_ne m ρ c main_v3 (by decide)).trans (w3_src m ρ c)
theorem w4_dst : W4 m ρ c (Proc.devRef .tc main_v6) = val_main_v6 (F := Ideal) (arg1 m c) :=
  (W4_of_ne m ρ c main_v6 (by decide)).trans (w3_dst m ρ c)
theorem w4_wt : W4 m ρ c (Proc.devRef .tc main_v31) = val_main_v31 (F := Ideal) (arg1 m c) :=
  (W4_of_ne m ρ c main_v31 (by decide)).trans (w3_wt m ρ c)
theorem w4_arg3 : W4 m ρ c (Proc.devRef .tc main_arg3) = arg3 m c :=
  (W4_of_ne m ρ c main_arg3 (by decide)).trans (w3_arg3 m ρ c)
theorem w4_arg4 : W4 m ρ c (Proc.devRef .tc main_arg4) = arg4 m c :=
  (W4_of_ne m ρ c main_arg4 (by decide)).trans (w3_arg4 m ρ c)
theorem w4_arg5 : W4 m ρ c (Proc.devRef .tc main_arg5) = arg5 m c :=
  (W4_of_ne m ρ c main_arg5 (by decide)).trans (w3_arg5 m ρ c)
theorem w4_arg6 : W4 m ρ c (Proc.devRef .tc main_arg6) = arg6 m c :=
  (W4_of_ne m ρ c main_arg6 (by decide)).trans (w3_arg6 m ρ c)
theorem w4_arg7 : W4 m ρ c (Proc.devRef .tc main_arg7) = arg7 m c :=
  (W4_of_ne m ρ c main_arg7 (by decide)).trans (w3_arg7 m ρ c)

/-! ## The first layer's aggregation -/

theorem w5_agg : W5 m ρ c (Proc.devRef .tc main_v48) = val_main_v48 (F := Ideal) (arg0 m c) (arg1 m c) (arg2 m c) (arg3 m c) :=
  Stretch.aggregate1 (W4 m ρ c) (arg0 m c) (arg1 m c) (arg2 m c) (arg3 m c) (w4_src m ρ c) (w4_dst m ρ c) (w4_wt m ρ c) (w4_prod m ρ c) (w4_arg3 m ρ c)
theorem w5_src : W5 m ρ c (Proc.devRef .tc main_v3) = val_main_v3 (F := Ideal) (arg1 m c) :=
  (Kept.s1_v3 (W4 m ρ c)).trans (w4_src m ρ c)
theorem w5_dst : W5 m ρ c (Proc.devRef .tc main_v6) = val_main_v6 (F := Ideal) (arg1 m c) :=
  (Kept.s1_v6 (W4 m ρ c)).trans (w4_dst m ρ c)
theorem w5_wt : W5 m ρ c (Proc.devRef .tc main_v31) = val_main_v31 (F := Ideal) (arg1 m c) :=
  (Kept.s1_v31 (W4 m ρ c)).trans (w4_wt m ρ c)
theorem w5_arg4 : W5 m ρ c (Proc.devRef .tc main_arg4) = arg4 m c :=
  (Kept.s1_arg4 (W4 m ρ c)).trans (w4_arg4 m ρ c)
theorem w5_arg5 : W5 m ρ c (Proc.devRef .tc main_arg5) = arg5 m c :=
  (Kept.s1_arg5 (W4 m ρ c)).trans (w4_arg5 m ρ c)
theorem w5_arg6 : W5 m ρ c (Proc.devRef .tc main_arg6) = arg6 m c :=
  (Kept.s1_arg6 (W4 m ρ c)).trans (w4_arg6 m ρ c)
theorem w5_arg7 : W5 m ρ c (Proc.devRef .tc main_arg7) = arg7 m c :=
  (Kept.s1_arg7 (W4 m ρ c)).trans (w4_arg7 m ρ c)

/-! ## Before the second launch: the first layer's activation -/

theorem w6_act : W6 m ρ c (Proc.devRef .tc main_v49) = val_main_v49 (F := Ideal) (arg0 m c) (arg1 m c) (arg2 m c) (arg3 m c) :=
  Stretch.rectify1 (W5 m ρ c) (arg0 m c) (arg1 m c) (arg2 m c) (arg3 m c) (w5_agg m ρ c)
theorem w6_src : W6 m ρ c (Proc.devRef .tc main_v3) = val_main_v3 (F := Ideal) (arg1 m c) :=
  (Kept.s1_1_v3 (W5 m ρ c)).trans (w5_src m ρ c)
theorem w6_dst : W6 m ρ c (Proc.devRef .tc main_v6) = val_main_v6 (F := Ideal) (arg1 m c) :=
  (Kept.s1_1_v6 (W5 m ρ c)).trans (w5_dst m ρ c)
theorem w6_wt : W6 m ρ c (Proc.devRef .tc main_v31) = val_main_v31 (F := Ideal) (arg1 m c) :=
  (Kept.s1_1_v31 (W5 m ρ c)).trans (w5_wt m ρ c)
theorem w6_arg4 : W6 m ρ c (Proc.devRef .tc main_arg4) = arg4 m c :=
  (Kept.s1_1_arg4 (W5 m ρ c)).trans (w5_arg4 m ρ c)
theorem w6_arg5 : W6 m ρ c (Proc.devRef .tc main_arg5) = arg5 m c :=
  (Kept.s1_1_arg5 (W5 m ρ c)).trans (w5_arg5 m ρ c)
theorem w6_arg6 : W6 m ρ c (Proc.devRef .tc main_arg6) = arg6 m c :=
  (Kept.s1_1_arg6 (W5 m ρ c)).trans (w5_arg6 m ρ c)
theorem w6_arg7 : W6 m ρ c (Proc.devRef .tc main_arg7) = arg7 m c :=
  (Kept.s1_1_arg7 (W5 m ρ c)).trans (w5_arg7 m ρ c)

/-! ## After the second launch -/

/-- The second launch leaves the host product of the first layer's activation by the second weight matrix. -/
theorem w7_prod : W7 m ρ c (Proc.devRef .tc main_v50) = val_main_v50 (F := Ideal) (arg0 m c) (arg1 m c) (arg2 m c) (arg3 m c) (arg4 m c) := by
  refine (W7_arr m ρ c 2).trans ((Cert.KernelIdeal.Layer1.written (V6 m ρ) c).trans ?_)
  unfold Cert.KernelIdeal.Layer1.whole
  rw [show V6 m ρ c main_v49 = _ from w6_act m ρ c, show V6 m ρ c main_arg4 = arg4 m c from w6_arg4 m ρ c]
  rfl
theorem w7_src : W7 m ρ c (Proc.devRef .tc main_v3) = val_main_v3 (F := Ideal) (arg1 m c) :=
  (W7_of_ne m ρ c main_v3 (by decide)).trans (w6_src m ρ c)
theorem w7_dst : W7 m ρ c (Proc.devRef .tc main_v6) = val_main_v6 (F := Ideal) (arg1 m c) :=
  (W7_of_ne m ρ c main_v6 (by decide)).trans (w6_dst m ρ c)
theorem w7_wt : W7 m ρ c (Proc.devRef .tc main_v31) = val_main_v31 (F := Ideal) (arg1 m c) :=
  (W7_of_ne m ρ c main_v31 (by decide)).trans (w6_wt m ρ c)
theorem w7_arg5 : W7 m ρ c (Proc.devRef .tc main_arg5) = arg5 m c :=
  (W7_of_ne m ρ c main_arg5 (by decide)).trans (w6_arg5 m ρ c)
theorem w7_arg6 : W7 m ρ c (Proc.devRef .tc main_arg6) = arg6 m c :=
  (W7_of_ne m ρ c main_arg6 (by decide)).trans (w6_arg6 m ρ c)
theorem w7_arg7 : W7 m ρ c (Proc.devRef .tc main_arg7) = arg7 m c :=
  (W7_of_ne m ρ c main_arg7 (by decide)).trans (w6_arg7 m ρ c)

/-! ## The second layer's aggregation -/

theorem w8_agg : W8 m ρ c (Proc.devRef .tc main_v66) = val_main_v66 (F := Ideal) (arg0 m c) (arg1 m c) (arg2 m c) (arg3 m c) (arg4 m c) (arg5 m c) :=
  Stretch.aggregate2 (W7 m ρ c) (arg0 m c) (arg1 m c) (arg2 m c) (arg3 m c) (arg4 m c) (arg5 m c) (w7_src m ρ c) (w7_dst m ρ c) (w7_wt m ρ c) (w7_prod m ρ c) (w7_arg5 m ρ c)
theorem w8_src : W8 m ρ c (Proc.devRef .tc main_v3) = val_main_v3 (F := Ideal) (arg1 m c) :=
  (Kept.s2_v3 (W7 m ρ c)).trans (w7_src m ρ c)
theorem w8_dst : W8 m ρ c (Proc.devRef .tc main_v6) = val_main_v6 (F := Ideal) (arg1 m c) :=
  (Kept.s2_v6 (W7 m ρ c)).trans (w7_dst m ρ c)
theorem w8_wt : W8 m ρ c (Proc.devRef .tc main_v31) = val_main_v31 (F := Ideal) (arg1 m c) :=
  (Kept.s2_v31 (W7 m ρ c)).trans (w7_wt m ρ c)
theorem w8_arg6 : W8 m ρ c (Proc.devRef .tc main_arg6) = arg6 m c :=
  (Kept.s2_arg6 (W7 m ρ c)).trans (w7_arg6 m ρ c)
theorem w8_arg7 : W8 m ρ c (Proc.devRef .tc main_arg7) = arg7 m c :=
  (Kept.s2_arg7 (W7 m ρ c)).trans (w7_arg7 m ρ c)

/-! ## Before the third launch: the second layer's activation -/

theorem w9_act : W9 m ρ c (Proc.devRef .tc main_v67) = val_main_v67 (F := Ideal) (arg0 m c) (arg1 m c) (arg2 m c) (arg3 m c) (arg4 m c) (arg5 m c) :=
  Stretch.rectify2 (W8 m ρ c) (arg0 m c) (arg1 m c) (arg2 m c) (arg3 m c) (arg4 m c) (arg5 m c) (w8_agg m ρ c)
theorem w9_src : W9 m ρ c (Proc.devRef .tc main_v3) = val_main_v3 (F := Ideal) (arg1 m c) :=
  (Kept.s2_1_v3 (W8 m ρ c)).trans (w8_src m ρ c)
theorem w9_dst : W9 m ρ c (Proc.devRef .tc main_v6) = val_main_v6 (F := Ideal) (arg1 m c) :=
  (Kept.s2_1_v6 (W8 m ρ c)).trans (w8_dst m ρ c)
theorem w9_wt : W9 m ρ c (Proc.devRef .tc main_v31) = val_main_v31 (F := Ideal) (arg1 m c) :=
  (Kept.s2_1_v31 (W8 m ρ c)).trans (w8_wt m ρ c)
theorem w9_arg6 : W9 m ρ c (Proc.devRef .tc main_arg6) = arg6 m c :=
  (Kept.s2_1_arg6 (W8 m ρ c)).trans (w8_arg6 m ρ c)
theorem w9_arg7 : W9 m ρ c (Proc.devRef .tc main_arg7) = arg7 m c :=
  (Kept.s2_1_arg7 (W8 m ρ c)).trans (w8_arg7 m ρ c)

/-! ## After the third launch -/

/-- The third launch leaves the host product of the second layer's activation by the third weight matrix. -/
theorem w10_prod : W10 m ρ c (Proc.devRef .tc main_v68) = val_main_v68 (F := Ideal) (arg0 m c) (arg1 m c) (arg2 m c) (arg3 m c) (arg4 m c) (arg5 m c) (arg6 m c) := by
  refine (W10_arr m ρ c 2).trans ((Cert.KernelIdeal.Layer2.written (V9 m ρ) c).trans ?_)
  unfold Cert.KernelIdeal.Layer2.whole
  rw [show V9 m ρ c main_v67 = _ from w9_act m ρ c, show V9 m ρ c main_arg6 = arg6 m c from w9_arg6 m ρ c]
  rfl
theorem w10_src : W10 m ρ c (Proc.devRef .tc main_v3) = val_main_v3 (F := Ideal) (arg1 m c) :=
  (W10_of_ne m ρ c main_v3 (by decide)).trans (w9_src m ρ c)
theorem w10_dst : W10 m ρ c (Proc.devRef .tc main_v6) = val_main_v6 (F := Ideal) (arg1 m c) :=
  (W10_of_ne m ρ c main_v6 (by decide)).trans (w9_dst m ρ c)
theorem w10_wt : W10 m ρ c (Proc.devRef .tc main_v31) = val_main_v31 (F := Ideal) (arg1 m c) :=
  (W10_of_ne m ρ c main_v31 (by decide)).trans (w9_wt m ρ c)
theorem w10_arg7 : W10 m ρ c (Proc.devRef .tc main_arg7) = arg7 m c :=
  (W10_of_ne m ρ c main_arg7 (by decide)).trans (w9_arg7 m ρ c)

/-! ## The result -/

/-- The program's result buffer ends at the reference's last stage of the eight argument arrays. -/
theorem result : W11 m ρ c (Proc.devRef .tc main_v90) = val_main_v90 (F := Ideal) (arg0 m c) (arg1 m c) (arg2 m c) (arg3 m c) (arg4 m c) (arg5 m c) (arg6 m c) (arg7 m c) :=
  Stretch.aggregate3 (W10 m ρ c) (arg0 m c) (arg1 m c) (arg2 m c) (arg3 m c) (arg4 m c) (arg5 m c) (arg6 m c) (arg7 m c) (w10_src m ρ c) (w10_dst m ρ c) (w10_wt m ρ c) (w10_prod m ρ c) (w10_arg7 m ρ c)

end Cert.KernelIdeal.Fold

end
-- ==== Proof.lean ====
/-
  A three-layer graph convolutional network on 50000 nodes and 800000 edges (plus one self loop per node): both programs
  append the self loops, count each node's incoming edges with a scatter-add of ones, take d = rsqrt(max(deg, 1)) where
  deg > 0 (else 0), give edge (s → t) the weight d(s) · d(t), and then per layer multiply the node features by a weight
  matrix, gather the source rows, scale each by its edge weight, scatter-add into the destination rows and add a bias;
  a rectifier follows the first two layers and a logistic function the third.  The two programs are the same host
  operations line for line; they differ only in the three matrix products (768 → 256, 256 → 128, 128 → 2), which the
  kernel launches on tiles of 2000 rows, narrowing both operands to bf16 and accumulating from zero, where the reference
  takes one host product.

  On the extended reals narrowing is the identity, and the entry (p, c) of a row tile's product is the same sum over k of
  left(row, k) · right(k, c) as the entry of the whole product in that row; the 25 tiles cover the rows exactly.  So each
  launch leaves the host product of the two arrays it found (Layer0 / Layer1 / Layer2), the buffers read later hold at
  every boundary the reference's own stages of the argument arrays (Fold), and the kernel's result is the reference's
  last stage of arguments that agree.  Two sums are compared term by term and nothing else: the precondition that the
  inputs are finite is never used.

  The three frames are the programs' runs with the result dropped; the idealization rewrote no operation, so there is
  nothing to preserve.
-/
import proofs.«110147_j57415122813717_1_alg».proof.Defs
import proofs.«110147_j57415122813717_1_alg».proof.Proof.Gen.Kernel
import proofs.«110147_j57415122813717_1_alg».proof.Proof.Gen.Kernel.Frame
import proofs.«110147_j57415122813717_1_alg».proof.Proof.Gen.KernelIdeal
import proofs.«110147_j57415122813717_1_alg».proof.Proof.Gen.KernelIdeal.Frame
import proofs.«110147_j57415122813717_1_alg».proof.Proof.Gen.ReferenceIdeal
import proofs.«110147_j57415122813717_1_alg».proof.Proof.Gen.Pre_finite_inputs
import proofs.«110147_j57415122813717_1_alg».proof.Proof.ReferenceRun
import proofs.«110147_j57415122813717_1_alg».proof.Proof.ReferenceRead
import proofs.«110147_j57415122813717_1_alg».proof.Proof.KernelRun
import proofs.«110147_j57415122813717_1_alg».proof.Proof.Fold
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the eight arguments both programs end with the reference's last stage of those
    arguments in their result buffer: the kernel's by the fold through its three launches, the reference's by its run. -/
theorem algebraic : Cert.algebraic_KernelIdeal_ReferenceIdeal := by
  intro m ρ m' ρ' _ hagree
  refine ⟨fun c => Cert.ReferenceIdeal.ReadP.val_main_v90 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Fold.result m ρ c), (h c).2⟩)
      (Cert.KernelIdeal.ResultRun.run (F := Ideal) m ρ)
  · refine (θ_run Cert.ReferenceIdeal.defs _ _).mono (fun _ h c => ⟨?_, (h c).2⟩) (Cert.ReferenceIdeal.ValueP.run (F := Ideal) m' ρ')
    rw [(h c).1, Cert.ReferenceIdeal.ReadP.val_main_v90_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
